-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S50000x64 .f32) (main_arg1 : IVec S800000 32) (main_arg2 : IVec S800000 32) (main_arg3 : FVec F S64x64 .f32) (main_arg4 : FVec F S64 .f32) (main_arg5 : FVec F S64x32 .f32) (main_arg6 : FVec F S32 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg5
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg6 main_v13 main_v16
-- ==== Kernel.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S5000x64 : Shape := ⟨2, ![5000, 64]⟩
abbrev S5000x1 : Shape := ⟨2, ![5000, 1]⟩
abbrev S1x64 : Shape := ⟨2, ![1, 64]⟩
abbrev S50000x32 : Shape := ⟨2, ![50000, 32]⟩
abbrev S5000x32 : Shape := ⟨2, ![5000, 32]⟩
abbrev S1x32 : Shape := ⟨2, ![1, 32]⟩

abbrev nBuf : Space → Nat
  | .hbm => 65
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S_, .i32⟩
  | .hbm, ⟨8, _⟩ => ⟨S800000, .i32⟩
  | .hbm, ⟨9, _⟩ => ⟨S_, .i32⟩
  | .hbm, ⟨10, _⟩ => ⟨S50000, .i32⟩
  | .hbm, ⟨11, _⟩ => ⟨S800000x1, .i32⟩
  | .hbm, ⟨12, _⟩ => ⟨S50000, .i32⟩
  | .hbm, ⟨13, _⟩ => ⟨S50000, .f32⟩
  | .hbm, ⟨14, _⟩ => ⟨S_, .i32⟩
  | .hbm, ⟨15, _⟩ => ⟨S50000, .i32⟩
  | .hbm, ⟨16, _⟩ => ⟨S800000x1, .i32⟩
  | .hbm, ⟨17, _⟩ => ⟨S50000, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x64, .f32⟩
  | .hbm, ⟨29, _⟩ => ⟨S50000x64, .f32⟩
  | .hbm, ⟨30, _⟩ => ⟨S50000x64, .bf16⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x64, .bf16⟩
  | .hbm, ⟨40, _⟩ => ⟨S800000x64, .f32⟩
  | .hbm, ⟨41, _⟩ => ⟨S_, .f32⟩
  | .hbm, ⟨42, _⟩ => ⟨S50000x64, .f32⟩
  | .hbm, ⟨43, _⟩ => ⟨S800000x1, .i32⟩
  | .hbm, ⟨44, _⟩ => ⟨S50000x64, .f32⟩
  | .hbm, ⟨45, _⟩ => ⟨S50000x1, .f32⟩
  | .hbm, ⟨46, _⟩ => ⟨S50000x1, .f32⟩
  | .hbm, ⟨47, _⟩ => ⟨S50000x64, .f32⟩
  | .hbm, ⟨48, _⟩ => ⟨S50000x64, .bf16⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x64, .bf16⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S50000x1, .f32⟩
  | .hbm, ⟨64, _⟩ => ⟨S50000x32, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x1, .f32⟩
  | .local _ .vmem, ⟨13, _⟩ => ⟨S5000x1, .f32⟩
  | .local _ .vmem, ⟨14, _⟩ => ⟨S64x32, .f32⟩
  | .local _ .vmem, ⟨15, _⟩ => ⟨S32, .f32⟩
  | .local _ .vmem, ⟨16, _⟩ => ⟨S5000x32, .f32⟩
  | .local _ .vmem, ⟨17, _⟩ => ⟨S5000x32, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_v34 : Ref sig .tc := ⟨.hbm, 50, rfl⟩
abbrev main_v35 : Ref sig .tc := ⟨.hbm, 51, rfl⟩
abbrev main_c_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bitsLt_bf16_f32 : FTy.bits .bf16 < FTy.bits .f32
  bcast_S_S50000x64 : S_.BroadcastsInDim S50000x64 (![] : Fin 0 → Fin S50000x64.rank)
  shapeCasts_S50000_S50000x1 : S50000.ShapeCasts S50000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S50000x32.size a
  hwx1_4 : ∀ i : grid1.Coords, EltTy.bits .f32 = 32 ∨ (Rect.block (s := S50000x32) S5000x32.size (cc1_transform_4 i) (hinb1_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf

abbrev win0_0 : Pipeline.Window sig grid0 :=
  Pipeline.Window.ofSpec (Memref.whole main_v29) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000 : Shape := ⟨1, ![800000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x64 : Shape := ⟨2, ![800000, 64]⟩
abbrev S1x64 : Shape := ⟨2, ![1, 64]⟩
abbrev S50000x32 : Shape := ⟨2, ![50000, 32]⟩
abbrev S1x32 : Shape := ⟨2, ![1, 32]⟩

abbrev nBuf : Space → Nat
  | .hbm => 92
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S_, .f32⟩
  | .hbm, ⟨8, _⟩ => ⟨S800000, .f32⟩
  | .hbm, ⟨9, _⟩ => ⟨S_, .f32⟩
  | .hbm, ⟨10, _⟩ => ⟨S50000, .f32⟩
  | .hbm, ⟨11, _⟩ => ⟨S800000x1, .i32⟩
  | .hbm, ⟨12, _⟩ => ⟨S50000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S50000x64, .f32⟩
  | .hbm, ⟨28, _⟩ => ⟨S50000x64, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S50000x64, .f32⟩
  | .hbm, ⟨43, _⟩ => ⟨S50000x64, .f32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S50000x64, .f32⟩
  | .hbm, ⟨48, _⟩ => ⟨S_, .f32⟩
  | .hbm, ⟨49, _⟩ => ⟨S50000x64, .f32⟩
  | .hbm, ⟨50, _⟩ => ⟨S50000x64, .f32⟩
  | .hbm, ⟨51, _⟩ => ⟨S_, .f32⟩
  | .hbm, ⟨52, _⟩ => ⟨S800000, .f32⟩
  | .hbm, ⟨53, _⟩ => ⟨S_, .f32⟩
  | .hbm, ⟨54, _⟩ => ⟨S50000, .f32⟩
  | .hbm, ⟨55, _⟩ => ⟨S800000x1, .i32⟩
  | .hbm, ⟨56, _⟩ => ⟨S50000, .f32⟩
  | .hbm, ⟨57, _⟩ => ⟨S_, .f32⟩
  | .hbm, ⟨58, _⟩ => ⟨S50000, .f32⟩
  | .hbm, ⟨59, _⟩ => ⟨S800000x1, .i32⟩
  | .hbm, ⟨60, _⟩ => ⟨S50000, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S_, .f32⟩
  | .hbm, ⟨67, _⟩ => ⟨S50000, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x64, .f32⟩
  | .hbm, ⟨72, _⟩ => ⟨S50000x64, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x64, .f32⟩
  | .hbm, ⟨82, _⟩ => ⟨S_, .f32⟩
  | .hbm, ⟨83, _⟩ => ⟨S50000x64, .f32⟩
  | .hbm, ⟨84, _⟩ => ⟨S800000x1, .i32⟩
  | .hbm, ⟨85, _⟩ => ⟨S50000x64, .f32⟩
  | .hbm, ⟨86, _⟩ => ⟨S50000x64, .f32⟩
  | .hbm, ⟨87, _⟩ => ⟨S50000x64, .f32⟩
  | .hbm, ⟨88, _⟩ => ⟨S50000x32, .f32⟩
  | .hbm, ⟨89, _⟩ => ⟨S1x32, .f32⟩
  | .hbm, ⟨90, _⟩ => ⟨S50000x32, .f32⟩
  | .hbm, ⟨91, _⟩ => ⟨S50000x32, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_c_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x32_S50000x32_1_0_0_1_n_n_wf : DotDims.WF S50000x64 S64x32 S50000x32 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf

class Facts : Prop extends Facts₀ where

variable [Facts]
-- ==== Proof.KernelRun.lean ====
/-
  The idealized kernel's run, with its result named.
  The program is four segments: host operations, the layer-1 kernel on a grid of ten row blocks, host operations, the
  layer-2 kernel on a grid of ten row blocks. Every weakly fair execution from any memory terminates without a fault,
  and at the end every buffer the TensorCore holds outside a kernel's scope has the contents of the last segment
  boundary: the fold of the host operations and of the two kernels' write-backs over the launch memory. In particular
  the result buffer ends at what the layer-2 kernel's ten write-backs leave in its output array, and each argument
  array ends as launched.
-/
import proofs.«114237_j19713899889202_2_alg».proof.Proof.Gen.KernelIdeal.Frame

set_option maxRecDepth 16384

noncomputable section

namespace Cert.GraphConv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run ends with every unscoped TensorCore buffer at the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE RUN WITH ITS RESULT: the result buffer ends at the layer-2 kernel's output array after its last write-back, and
    the seven argument arrays end as launched. -/
theorem run_value : θ_run defs (onTc (τ := τ) (main (F := F))) ⟨m, fun _ => 0, ρ⟩ (fun r => ∀ c : Dev nD,
      r.2.mem ((c.tc : Thread nD τ).loc main_v46) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨(h c _ (mem_uc main_v46 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)
    (run_boundary m ρ)

end Cert.GraphConv

end
-- ==== Proof.LibScatterCount.lean ====
/-
  Counting by scatter. A host scatter whose body is the 32-bit integer addition, applied to an operand of zeros with every
  update equal to one, leaves at each operand index the NUMBER of update positions whose result index lands there, as a
  32-bit word. When there are fewer than 2^31 update positions that word, read as a signed integer, is that number
  exactly, and so converting it to a float at the ideal instance gives the same extended real as the float scatter
  with an addition body applied to zeros with every update equal to one: the sum of ones over the same landing set.
  Nothing here mentions a particular program: the statements hold for any scatter dimension numbers.
-/
import Idealize.ShloMosaic.PureOps.Ideal
import Idealize.ShloMosaic.PureOps.Ideal.Laws
import Idealize.ShloMosaic.PureOps.ShapeOps
import Idealize.ShloMosaic.PureOps.Contract
import Idealize.ShloMosaic.Lib.ValueIdx

noncomputable section

namespace Idealize.ShloMosaic.ScatterCount

open Idealize.ShloMosaic

variable {s si u : Shape} {w : Nat}

/-- How many update positions, taken in row-major order, land on operand index `i`. -/
def landing (d : ScatterDims s si u) (idx : IVec si w) (i : s.Idx) : ℕ :=
  ∑ n : Fin u.numel, if d.resultIdx? (u.rowMajor.symm n) idx = some i then 1 else 0

/-- The same number as a sum over the update indices themselves. -/
theorem landing_eq_sum_idx (d : ScatterDims s si u) (idx : IVec si w) (i : s.Idx) :
    landing d idx i = ∑ j : u.Idx, if d.resultIdx? j idx = some i then 1 else 0 := by
  unfold landing
  exact Equiv.sum_comp u.rowMajor.symm (fun j => if d.resultIdx? j idx = some i then 1 else 0)

/-- At most one landing per update position. -/
theorem landing_le (d : ScatterDims s si u) (idx : IVec si w) (i : s.Idx) : landing d idx i ≤ u.numel := by
  unfold landing
  calc (∑ n : Fin u.numel, if d.resultIdx? (u.rowMajor.symm n) idx = some i then 1 else 0)
      ≤ ∑ _n : Fin u.numel, 1 := Finset.sum_le_sum fun n _ => by split <;> omega
    _ = u.numel := by simp

/-- The fold of the integer scatter over ANY list of update positions: the operand's word plus the number of positions
    of the list that land on the index, as a 32-bit word (addition of words wraps, and so does the count's word). -/
theorem foldl_addi_ones (d : ScatterDims s si u) (idx : IVec si w) (l : List (Fin u.numel)) (x : s.Idx → BitVec 32) (i : s.Idx) :
    (l.foldl (fun r n =>
        match d.resultIdx? (u.rowMajor.symm n) idx with
        | some i0 => fun i' => if i' = i0 then IntOp.addi (r i0) ((fun _ => 1#32 : u.Idx → BitVec 32) (u.rowMajor.symm n)) else r i'
        | none => r) x) i
      = x i + BitVec.ofNat 32 ((l.map fun n => if d.resultIdx? (u.rowMajor.symm n) idx = some i then 1 else 0).sum) := by
  induction l generalizing x with
  | nil => simp
  | cons n l ih =>
    rw [List.foldl_cons, ih, List.map_cons, List.sum_cons]
    cases h : d.resultIdx? (u.rowMajor.symm n) idx with
    | none =>
      simp only [reduceCtorEq, if_false, Nat.zero_add]
    | some i0 =>
      by_cases hi : i = i0
      · subst hi
        simp only [if_true, IntOp.addi]
        rw [BitVec.ofNat_add, ← BitVec.add_assoc]
      · have hne : ¬ (some i0 = some i) := fun e => hi (Option.some.inj e).symm
        simp only [if_neg hi, if_neg hne, Nat.zero_add]

/-- THE INTEGER SCATTER OF ONES, AT AN INDEX: the operand's word plus the landing count's word. -/
theorem scatter_addi_ones_apply (d : ScatterDims s si u) (idx : IVec si w) (x : s.Idx → BitVec 32) (i : s.Idx) :
    Host.scatter d IntOp.addi x idx (fun _ => 1#32) i = x i + BitVec.ofNat 32 (landing d idx i) := by
  unfold Host.scatter
  refine (foldl_addi_ones d idx (List.finRange u.numel) x i).trans ?_
  unfold landing
  rw [Fin.sum_univ_def]

/-- A count below 2^31, put in a 32-bit word and read back signed, is itself. -/
theorem toInt_ofNat_of_lt (k : ℕ) (hk : k < 2 ^ 31) : (BitVec.ofNat 32 k).toInt = (k : ℤ) := by
  rw [BitVec.toInt_eq_toNat_of_lt (by rw [BitVec.toNat_ofNat]; omega), BitVec.toNat_ofNat]
  congr 1
  omega

/-- THE FLOAT SCATTER OF ONES, AT AN INDEX, at the ideal instance: the landing count as an extended real. -/
theorem hostScatterAdd_ones_apply (d : ScatterDims s si u) (idx : IVec si w) (i : s.Idx) :
    Ideal.hostScatterAdd d (fun _ => (0 : EReal)) idx (fun _ => (1 : EReal)) i = ((landing d idx i : ℕ) : EReal) := by
  unfold Ideal.hostScatterAdd
  rw [zero_add, Finset.sum_filter, landing_eq_sum_idx, Nat.cast_sum]
  refine Finset.sum_congr rfl fun j _ => ?_
  split <;> simp

/-- COUNTING IN INTEGERS IS COUNTING IN FLOATS at the ideal instance: with fewer than 2^31 update positions, the integer
    scatter-add of ones into zeros, converted to a float, is the float scatter-add of ones into zeros. -/
theorem sitofp_scatter_ones (d : ScatterDims s si u) (idx : IVec si w) (hu : u.numel < 2 ^ 31)
    (x : s.Idx → BitVec 32) (hx : ∀ i, x i = 0#32) (upd : u.Idx → BitVec 32) (hupd : upd = fun _ => 1#32)
    (xf : FVec Ideal s .f32) (hxf : xf = fun _ => (0 : EReal)) (updf : FVec Ideal u .f32) (hupdf : updf = fun _ => (1 : EReal)) :
    (sitofp .f32 (Host.scatter d IntOp.addi x idx upd) : FVec Ideal s .f32) = Host.scatterAdd d xf idx updf := by
  subst hupd hxf hupdf
  funext i
  show (((Host.scatter d IntOp.addi x idx (fun _ => 1#32) i).toInt : ℝ) : EReal) = Ideal.hostScatterAdd d (fun _ => (0 : EReal)) idx (fun _ => (1 : EReal)) i
  rw [scatter_addi_ones_apply, hostScatterAdd_ones_apply, hx i, BitVec.zero_add,
    toInt_ofNat_of_lt _ (lt_of_le_of_lt (landing_le d idx i) hu)]
  simp

end Idealize.ShloMosaic.ScatterCount

end
-- ==== Proof.Host0.lean ====
/-
  The kernel's host operations before its first kernel, against the reference's stages.
  Both programs count, for every node, its outgoing and incoming edges; scale the features by the source norm
  (the reciprocal square root of the out-degree, floored at one); gather the scaled rows along the edges' sources and add
  them up at the edges' destinations. They differ in three spellings only, none of which changes a value at the ideal
  instance: the kernel counts in 32-bit integers and converts the count to a float, where the reference adds float ones
  (with 800000 edges the integer count cannot wrap, so the two counts are one number); the kernel narrows the scaled
  features to bf16 before the gather and widens them after it (both the identity on extended reals); and the kernel makes
  the norm columns by a reshape [50000] → [50000, 1] where the reference broadcasts along a new unit axis (the same
  column). So the arrays the first kernel finds are the reference's own stages.
-/
import proofs.«114237_j19713899889202_2_alg».proof.Proof.Gen.KernelIdeal.Frame
import proofs.«114237_j19713899889202_2_alg».proof.Proof.Gen.ReferenceIdeal.Read
import proofs.«114237_j19713899889202_2_alg».proof.Proof.LibScatterCount
import Idealize.ShloMosaic.Lib.IdealHost
import Idealize.ShloMosaic.Lib.Pipeline.Value
import Idealize.ShloMosaic.Lib.StableHlo.Run

set_option maxRecDepth 16384

noncomputable section

namespace Cert.GraphConv

open Idealize.ShloMosaic Idealize.ShloMosaic.TcCoe Idealize.ShloMosaic.ValueIdx Idealize.ShloMosaic.StableHlo
open Idealize.SL Idealize.SL.Sem
open Cert.KernelIdeal Cert.KernelIdeal.Gen
open Cert.ReferenceIdeal.Read (val_main_v0 val_main_v1 val_main_v3 val_main_v9 val_main_v13 val_main_v14 val_main_v26 val_main_v44 val_main_v48 val_main_v50 val_main_v60 val_main_v66)

/-- A vector reshaped to a column is the vector broadcast along a new unit axis. -/
theorem shapeCast_col_eq_broadcastInDim {α : Type} {n : ℕ} (v : (⟨1, ![n]⟩ : Shape).Idx → α)
    (h : (⟨1, ![n]⟩ : Shape).ShapeCasts ⟨2, ![n, 1]⟩) (h' : (⟨1, ![n]⟩ : Shape).BroadcastsInDim ⟨2, ![n, 1]⟩ ![0]) :
    shapeCast ⟨2, ![n, 1]⟩ v h = broadcastInDim ⟨2, ![n, 1]⟩ ![0] h' v := by
  funext i
  obtain ⟨r, u, rfl⟩ : ∃ (r : Fin n) (u : Fin 1), i = ix2 r u := ⟨i 0, i 1, eq_ix2 i⟩
  have hu : u.val = 0 := by omega
  rw [shapeCast_apply v h (ix2 r u) (ix1 r) (by
        rw [Shape.rowMajor_val_two, Shape.rowMajor_val_one]
        show r.val = r.val * 1 + u.val
        omega),
    broadcastInDim_apply ![0] h' v (ix2 r u) (ix1 r) (fun a => by
        match a with
        | ⟨0, _⟩ =>
          show r.val = if n = 1 then 0 else r.val
          split
          · have := r.isLt; omega
          · rfl)]

/-- THE DEGREE COUNT: the kernel's integer count of the edges at each node, converted to a float, is the reference's
    float count (800000 update positions: far below 2^31). -/
theorem degree_eq (idx : IVec S800000 32) :
    (sitofp .f32 (Host.scatter scatter_S50000_S800000x1_S800000_n_0_0_1 IntOp.addi
        (broadcastInDim S50000 ![] bcast_S_S50000 (constantI S_ 32 0#32))
        (broadcastInDim S800000x1 ![0] bcast_S800000_S800000x1_0 idx)
        (broadcastInDim S800000 ![] bcast_S_S800000 (constantI S_ 32 1#32))) : FVec Ideal S50000 .f32)
      = val_main_v3 (F := Ideal) idx :=
  ScatterCount.sitofp_scatter_ones _ _ (by decide) _ (fun _ => rfl) _ rfl
    (val_main_v1 (F := Ideal)) (funext fun _ => Ideal.ofBits_zero_f32) (val_main_v0 (F := Ideal)) (funext fun _ => Ideal.ofBits_one_f32)

variable (m : (ℓ : Loc nD τ sig) → Buf (Elt Ideal) ℓ) (ρ : Dev nD → PrngReg)

/-- The first kernel finds the reference's first aggregate. -/
theorem entry1_agg (c : Dev nD) :
    V1 m ρ c main_v29 = val_main_v26 (F := Ideal) (m ((c : Thread nD τ).loc main_arg0)) (m ((c : Thread nD τ).loc main_arg1)) (m ((c : Thread nD τ).loc main_arg2)) := by
  show StableHlo.after hostOps0 (W0 m ρ c) (Proc.devRef .tc main_v29) = _
  after_results_simp
  rw [degree_eq]
  rfl

/-- The first kernel finds the reference's destination-norm column. -/
theorem entry1_nd (c : Dev nD) :
    V1 m ρ c main_v30 = val_main_v14 (F := Ideal) (m ((c : Thread nD τ).loc main_arg2)) := by
  show StableHlo.after hostOps0 (W0 m ρ c) (Proc.devRef .tc main_v30) = _
  after_results_simp
  rw [degree_eq]
  exact (shapeCast_col_eq_broadcastInDim _ shapeCasts_S50000_S50000x1 bcast_S50000_S50000x1_0).trans rfl

/-- The first kernel finds the reference's source-norm column. -/
theorem entry1_ns (c : Dev nD) :
    V1 m ρ c main_v31 = val_main_v44 (F := Ideal) (m ((c : Thread nD τ).loc main_arg1)) := by
  show StableHlo.after hostOps0 (W0 m ρ c) (Proc.devRef .tc main_v31) = _
  after_results_simp
  rw [degree_eq]
  exact (shapeCast_col_eq_broadcastInDim _ shapeCasts_S50000_S50000x1 bcast_S50000_S50000x1_0).trans rfl

/-- The destination norms as the host operations leave them (the second kernel's column is a reshape of this vector). -/
theorem entry1_ndvec (c : Dev nD) :
    V1 m ρ c main_v14 = val_main_v13 (F := Ideal) (m ((c : Thread nD τ).loc main_arg2)) := by
  show StableHlo.after hostOps0 (W0 m ρ c) (Proc.devRef .tc main_v14) = _
  after_results_simp
  rw [degree_eq]
  rfl

/-- No host operation before the first kernel writes an argument array. -/
theorem entry1_arg (c : Dev nD) :
    V1 m ρ c main_arg1 = m ((c : Thread nD τ).loc main_arg1) ∧ V1 m ρ c main_arg2 = m ((c : Thread nD τ).loc main_arg2)
    ∧ V1 m ρ c main_arg3 = m ((c : Thread nD τ).loc main_arg3) ∧ V1 m ρ c main_arg4 = m ((c : Thread nD τ).loc main_arg4)
    ∧ V1 m ρ c main_arg5 = m ((c : Thread nD τ).loc main_arg5) ∧ V1 m ρ c main_arg6 = m ((c : Thread nD τ).loc main_arg6) := by
  refine ⟨?_, ?_, ?_, ?_, ?_, ?_⟩
  · show StableHlo.after hostOps0 (W0 m ρ c) (Proc.devRef .tc main_arg1) = _
    after_results_simp <;> rfl
  · show StableHlo.after hostOps0 (W0 m ρ c) (Proc.devRef .tc main_arg2) = _
    after_results_simp <;> rfl
  · show StableHlo.after hostOps0 (W0 m ρ c) (Proc.devRef .tc main_arg3) = _
    after_results_simp <;> rfl
  · show StableHlo.after hostOps0 (W0 m ρ c) (Proc.devRef .tc main_arg4) = _
    after_results_simp <;> rfl
  · show StableHlo.after hostOps0 (W0 m ρ c) (Proc.devRef .tc main_arg5) = _
    after_results_simp <;> rfl
  · show StableHlo.after hostOps0 (W0 m ρ c) (Proc.devRef .tc main_arg6) = _
    after_results_simp <;> rfl

end Cert.GraphConv

end
-- ==== Proof.Payload.lean ====
/-
  The two kernel bodies, read at one entry of the block they store.
  Layer 1's body stores, at row p and column q of its 5000-row block,
      max( Σ_k (agg[p,k] · nd[p]) · W[k,q] + b[q], 0 ) · ns[p]
  and layer 2's body stores  Σ_k (agg[p,k] · nd[p]) · W[k,q] + b[q]:
  the row of the aggregated features scaled by the row's destination norm, times the weight matrix, plus the bias (then,
  in layer 1, the rectifier and the row's source norm). At the ideal instance the two narrowings to bf16 in front of the
  product are the identity, the product into a zero accumulator is the plain sum over the 64 contracted positions, the
  casts of a block to its own shape do nothing, a column [5000,1] broadcast along the row reads the row's entry, and a
  vector cast to one row and broadcast down the rows reads the column's entry.
-/
import proofs.«114237_j19713899889202_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.GraphConv

open Idealize.ShloMosaic Idealize.ShloMosaic.ValueIdx Cert.KernelIdeal Cert.KernelIdeal.Gen

/-- A column [a, 1] broadcast along the rows to [a, b] reads, at row `p` and any column, the column's entry of row `p`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Rows of the left operand are kept by the product's left index map. -/
theorem mm1_lhs0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- Columns of the right operand are kept by the product's right index map. -/
theorem mm1_rhs1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The block product into a zero accumulator, at row `p` and column `q`: the sum over the 64 contracted positions of
    the left operand's row entry times the right operand's column entry. -/
theorem mm1_apply (l : FVec Ideal S5000x64 .bf16) (r : FVec Ideal S64x64 .bf16) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  show FloatOps.matmul dot_S5000x64_S64x64_S5000x64_1_0_0_1_n_n none l r (constant (F := Ideal) S5000x64 .f32 0x00000000#32) (ix2 p q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact mm1_lhs0 _ _
    | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot_S5000x64_S64x64_S5000x64_1_0_0_1_n_n.rhsIdx_val_of_single rfl _ _).trans hk
    | ⟨1, _⟩ => exact mm1_rhs1 _ _)
  rw [el, er]

/-- Rows of the left operand are kept by the product's left index map. -/
theorem mm2_lhs0 (i : S5000x32.Idx) (q : dot_S5000x64_S64x32_S5000x32_1_0_0_1_n_n.contr.Idx) : (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
/-- Columns of the right operand are kept by the product's right index map. -/
theorem mm2_rhs1 (i : S5000x32.Idx) (q : dot_S5000x64_S64x32_S5000x32_1_0_0_1_n_n.contr.Idx) : (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- The block product into a zero accumulator, at row `p` and column `q`: the sum over the 64 contracted positions of
    the left operand's row entry times the right operand's column entry. -/
theorem mm2_apply (l : FVec Ideal S5000x64 .bf16) (r : FVec Ideal S64x32 .bf16) (p : Fin 5000) (q : Fin 32) :
    matmul dot_S5000x64_S64x32_S5000x32_1_0_0_1_n_n none l r (constant (F := Ideal) S5000x32 .f32 0x00000000#32) (ix2 p q)
      = ∑ k : Fin 64, l (ix2 p k) * r (ix2 k q) := by
  show FloatOps.matmul dot_S5000x64_S64x32_S5000x32_1_0_0_1_n_n none l r (constant (F := Ideal) S5000x32 .f32 0x00000000#32) (ix2 p q) = _
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p q) ((contrEquiv1 dot_S5000x64_S64x32_S5000x32_1_0_0_1_n_n 64 rfl rfl).symm k) = ix2 p k := funext fun a => Fin.ext (by
    match a with
    | ⟨0, _⟩ => exact mm2_lhs0 _ _
    | ⟨1, _⟩ => exact (dot_S5000x64_S64x32_S5000x32_1_0_0_1_n_n.lhsIdx_val_of_single rfl _ _).trans hk)
  have er : dot_S5000x64_S64x32_S5000x32_1_0_0_1_n_n.rhsIdx (ix2 p q) ((contrEquiv1 dot_S5000x64_S64x32_S5000x32_1_0_0_1_n_n 64 rfl rfl).symm k) = ix2 k q := funext fun a => Fin.ext (by
    match a with
    | ⟨0, _⟩ => exact (dot_S5000x64_S64x32_S5000x32_1_0_0_1_n_n.rhsIdx_val_of_single rfl _ _).trans hk
    | ⟨1, _⟩ => exact mm2_rhs1 _ _)
  rw [el, er]

/-- LAYER 1's BODY at row `p`, column `q` of the block. -/
theorem pay1_apply (v0 : Vec Ideal S5000x64 .f32) (v2 : Vec Ideal S5000x1 .f32) (v7 : Vec Ideal S64x64 .f32) (v10 : Vec Ideal S64 .f32)
    (v16 : Vec Ideal S5000x1 .f32) (p : Fin 5000) (q : Fin 64) :
    k0_pay1 (F := Ideal) v0 v2 v7 v10 v16 (ix2 p q)
      = max ((∑ k : Fin 64, (v0 (ix2 p k) * v2 (ix2 p (0 : Fin 1))) * v7 (ix2 k q)) + v10 (ix1 q))
          (FloatOps.ofBits (F := Ideal) .f32 0x00000000#32) * v16 (ix2 p (0 : Fin 1)) := by
  unfold k0_pay1
  simp only [mulf_apply, maximumf_apply, addf_apply, broadcast_apply]
  rw [mm1_apply, broadcastTo_col_apply, broadcastTo_1b_ab_apply, shapeCast_a_1a_apply, shapeCast_self]
  simp only [truncf_apply, mulf_apply, shapeCast_self, broadcastTo_col_apply]

/-- LAYER 2's BODY at row `p`, column `q` of the block. -/
theorem pay2_apply (v0 : Vec Ideal S5000x64 .f32) (v2 : Vec Ideal S5000x1 .f32) (v7 : Vec Ideal S64x32 .f32) (v10 : Vec Ideal S32 .f32)
    (p : Fin 5000) (q : Fin 32) :
    k1_pay1 (F := Ideal) v0 v2 v7 v10 (ix2 p q)
      = (∑ k : Fin 64, (v0 (ix2 p k) * v2 (ix2 p (0 : Fin 1))) * v7 (ix2 k q)) + v10 (ix1 q) := by
  unfold k1_pay1
  simp only [addf_apply]
  rw [mm2_apply, broadcastTo_1b_ab_apply, shapeCast_a_1a_apply]
  simp only [truncf_apply, mulf_apply, shapeCast_self, broadcastTo_col_apply]

end Cert.GraphConv

end
-- ==== Proof.Spec.lean ====
/-
  The dense half of a graph-convolution layer, index by index, at the ideal instance (floats are extended reals).
  Given the aggregated features A (one row per node, 64 columns), the destination norms nd and the source norms ns (one
  entry per node, kept as a column), a weight matrix W and a bias b:
    layer 1 at node r, column q :  max( Σ_k (A[r,k] · nd[r]) · W[k,q] + b[q], 0 ) · ns[r]
    layer 2 at node r, column q :        Σ_k (A[r,k] · nd[r]) · W[k,q] + b[q]
  The row functions are stated for any number of rows, so that the same formula names a 5000-row block and the whole
  50000-row array; a block of the array function is the row function of the array's rows in that block.
-/
import Idealize.ShloMosaic.PureOps.Ideal
import Idealize.ShloMosaic.Lib.ValueIdx

noncomputable section

namespace Cert.GraphConv

open Idealize.ShloMosaic Idealize.ShloMosaic.ValueIdx

/-- Layer 1 at row `r`, column `q` of arrays with `R` rows. -/
def row1 {R : ℕ} (A : (⟨2, ![R, 64]⟩ : Shape).Idx → EReal) (nd ns : (⟨2, ![R, 1]⟩ : Shape).Idx → EReal)
    (W : (⟨2, ![64, 64]⟩ : Shape).Idx → EReal) (b : (⟨1, ![64]⟩ : Shape).Idx → EReal) (r : Fin R) (q : Fin 64) : EReal :=
  max ((∑ k : Fin 64, (A (ix2 r k) * nd (ix2 r (0 : Fin 1))) * W (ix2 k q)) + b (ix1 q))
    (FloatOps.ofBits (F := Ideal) .f32 0x00000000#32) * ns (ix2 r (0 : Fin 1))

/-- Layer 2 at row `r`, column `q` of arrays with `R` rows. -/
def row2 {R : ℕ} (A : (⟨2, ![R, 64]⟩ : Shape).Idx → EReal) (nd : (⟨2, ![R, 1]⟩ : Shape).Idx → EReal)
    (W : (⟨2, ![64, 32]⟩ : Shape).Idx → EReal) (b : (⟨1, ![32]⟩ : Shape).Idx → EReal) (r : Fin R) (q : Fin 32) : EReal :=
  (∑ k : Fin 64, (A (ix2 r k) * nd (ix2 r (0 : Fin 1))) * W (ix2 k q)) + b (ix1 q)

/-- Layer 1 over all 50000 nodes, as one array. -/
def layer1 (A : (⟨2, ![50000, 64]⟩ : Shape).Idx → EReal) (nd ns : (⟨2, ![50000, 1]⟩ : Shape).Idx → EReal)
    (W : (⟨2, ![64, 64]⟩ : Shape).Idx → EReal) (b : (⟨1, ![64]⟩ : Shape).Idx → EReal) : (⟨2, ![50000, 64]⟩ : Shape).Idx → EReal :=
  fun i => row1 A nd ns W b ⟨(i 0).val, idx2_lt0 i⟩ ⟨(i 1).val, idx2_lt1 i⟩

/-- Layer 2 over all 50000 nodes, as one array. -/
def layer2 (A : (⟨2, ![50000, 64]⟩ : Shape).Idx → EReal) (nd : (⟨2, ![50000, 1]⟩ : Shape).Idx → EReal)
    (W : (⟨2, ![64, 32]⟩ : Shape).Idx → EReal) (b : (⟨1, ![32]⟩ : Shape).Idx → EReal) : (⟨2, ![50000, 32]⟩ : Shape).Idx → EReal :=
  fun i => row2 A nd W b ⟨(i 0).val, idx2_lt0 i⟩ ⟨(i 1).val, idx2_lt1 i⟩

theorem layer1_ix2 (A : (⟨2, ![50000, 64]⟩ : Shape).Idx → EReal) (nd ns : (⟨2, ![50000, 1]⟩ : Shape).Idx → EReal)
    (W : (⟨2, ![64, 64]⟩ : Shape).Idx → EReal) (b : (⟨1, ![64]⟩ : Shape).Idx → EReal) (r : Fin 50000) (q : Fin 64) :
    layer1 A nd ns W b (ix2 r q) = row1 A nd ns W b r q := rfl

theorem layer2_ix2 (A : (⟨2, ![50000, 64]⟩ : Shape).Idx → EReal) (nd : (⟨2, ![50000, 1]⟩ : Shape).Idx → EReal)
    (W : (⟨2, ![64, 32]⟩ : Shape).Idx → EReal) (b : (⟨1, ![32]⟩ : Shape).Idx → EReal) (r : Fin 50000) (q : Fin 32) :
    layer2 A nd W b (ix2 r q) = row2 A nd W b r q := rfl

end Cert.GraphConv

end
-- ==== Proof.Blocks1.lean ====
/-
  Layer 1's kernel, from blocks to the array.
  The kernel runs on a grid of ten points; point t handles rows 5000·t … 5000·t + 4999. Its three row-blocked inputs (the
  aggregated features, the destination norms, the source norms) and its output move with the point along the rows; the
  weight matrix and the bias are the same whole block at every point. So what point t writes back is the block, at those
  rows, of ONE function of the whole input arrays, `layer1`: row r of the output depends on row r of the aggregated
  features, on the two norms of node r, and on the weights and the bias. The ten blocks tile the 50000 rows, so after the
  last write-back the output array is `layer1` of the arrays the kernel found.
-/
import proofs.«114237_j19713899889202_2_alg».proof.Proof.Gen.KernelIdeal.Frame
import proofs.«114237_j19713899889202_2_alg».proof.Proof.Payload
import proofs.«114237_j19713899889202_2_alg».proof.Proof.Spec
import Idealize.ShloMosaic.Lib.Pipeline.Value

set_option maxRecDepth 16384

noncomputable section

namespace Cert.GraphConv

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The index maps, decided over the ten grid points: the three row-blocked inputs sit at the output's row block and at
    column block 0; the weights and the bias at block 0; the output at column block 0 and a row block below 10. -/
theorem idx_facts1 : ∀ t : Fin cfg0.N,
      win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 9 :=
  (by decide +kernel : ∀ t : Fin grid0.N, _)

theorem row_block_le1 (t : Fin cfg0.N) : win0_5.index t (0 : Fin 2) ≤ 9 := (idx_facts1 t).2.2.2.2.2.2.2.2.2.2

/-- Every row block is some point's. -/
theorem idx_onto1 : ∀ q0 : Fin 10, ∃ t : Fin cfg0.N, win0_5.index t = ![q0.val, 0] :=
  (by decide +kernel : ∀ q0 : Fin 10, ∃ t : Fin grid0.N, win0_5.index t = ![q0.val, 0])

/-- Row `p` of point `t`'s block is this row of the array. -/
def blockRow1 (t : Fin cfg0.N) (p : Fin 5000) : Fin 50000 :=
  ⟨win0_5.index t (0 : Fin 2) * 5000 + p.val, by have := row_block_le1 t; have := p.isLt; omega⟩

/-- The aggregated features' block at a point reads the array at the block's rows. -/
theorem read1_agg (c : Dev nD) (t : Fin cfg0.N) (p : Fin 5000) (k : Fin 64) :
    iblk0 V c 0 t (ix2 p k) = V c main_v29 (ix2 (blockRow1 t p) k) := by
  show V c main_v29 (((cfg0.win 0).blk t).view.emb (ix2 p k)) = _
  refine congrArg (V c main_v29) (funext fun a => Fin.ext ?_)
  obtain ⟨e0, e1, -⟩ := idx_facts1 t
  match a with
  | ⟨0, _⟩ => show win0_0.index t (0 : Fin 2) * 5000 + 1 * p.val = win0_5.index t (0 : Fin 2) * 5000 + p.val; omega
  | ⟨1, _⟩ => show win0_0.index t (1 : Fin 2) * 64 + 1 * k.val = k.val; omega

/-- The destination norms' block at a point reads the column at the block's rows. -/
theorem read1_nd (c : Dev nD) (t : Fin cfg0.N) (p : Fin 5000) :
    iblk0 V c 1 t (ix2 p (0 : Fin 1)) = V c main_v30 (ix2 (blockRow1 t p) (0 : Fin 1)) := by
  show V c main_v30 (((cfg0.win 1).blk t).view.emb (ix2 p (0 : Fin 1))) = _
  refine congrArg (V c main_v30) (funext fun a => Fin.ext ?_)
  obtain ⟨-, -, e0, e1, -⟩ := idx_facts1 t
  match a with
  | ⟨0, _⟩ => show win0_1.index t (0 : Fin 2) * 5000 + 1 * p.val = win0_5.index t (0 : Fin 2) * 5000 + p.val; omega
  | ⟨1, _⟩ => show win0_1.index t (1 : Fin 2) * 1 + 1 * 0 = 0; omega

/-- The source norms' block at a point reads the column at the block's rows. -/
theorem read1_ns (c : Dev nD) (t : Fin cfg0.N) (p : Fin 5000) :
    iblk0 V c 2 t (ix2 p (0 : Fin 1)) = V c main_v31 (ix2 (blockRow1 t p) (0 : Fin 1)) := by
  show V c main_v31 (((cfg0.win 2).blk t).view.emb (ix2 p (0 : Fin 1))) = _
  refine congrArg (V c main_v31) (funext fun a => Fin.ext ?_)
  obtain ⟨-, -, -, -, e0, e1, -⟩ := idx_facts1 t
  match a with
  | ⟨0, _⟩ => show win0_2.index t (0 : Fin 2) * 5000 + 1 * p.val = win0_5.index t (0 : Fin 2) * 5000 + p.val; omega
  | ⟨1, _⟩ => show win0_2.index t (1 : Fin 2) * 1 + 1 * 0 = 0; omega

/-- The weights' block at every point is the whole matrix. -/
theorem read1_w (c : Dev nD) (t : Fin cfg0.N) (k q : Fin 64) :
    iblk0 V c 3 t (ix2 k q) = V c main_arg3 (ix2 k q) := by
  show V c main_arg3 (((cfg0.win 3).blk t).view.emb (ix2 k q)) = _
  refine congrArg (V c main_arg3) (funext fun a => Fin.ext ?_)
  obtain ⟨-, -, -, -, -, -, e0, e1, -⟩ := idx_facts1 t
  match a with
  | ⟨0, _⟩ => show win0_3.index t (0 : Fin 2) * 64 + 1 * k.val = k.val; omega
  | ⟨1, _⟩ => show win0_3.index t (1 : Fin 2) * 64 + 1 * q.val = q.val; omega

/-- The bias's block at every point is the whole vector. -/
theorem read1_b (c : Dev nD) (t : Fin cfg0.N) (q : Fin 64) :
    iblk0 V c 4 t (ix1 q) = V c main_arg4 (ix1 q) := by
  show V c main_arg4 (((cfg0.win 4).blk t).view.emb (ix1 q)) = _
  refine congrArg (V c main_arg4) (funext fun a => Fin.ext ?_)
  obtain ⟨-, -, -, -, -, -, -, -, e0, -⟩ := idx_facts1 t
  match a with
  | ⟨0, _⟩ => show win0_4.index t (0 : Fin 1) * 64 + 1 * q.val = q.val; omega

/-- Entry (p, q) of point `t`'s output block is entry (row of p, q) of the array. -/
theorem emb1_out (t : Fin cfg0.N) (p : Fin 5000) (q : Fin 64) :
    ((cfg0.win 5).blk t).view.emb (ix2 p q) = ix2 (blockRow1 t p) q := by
  funext a; apply Fin.ext
  have e1 : win0_5.index t (1 : Fin 2) = 0 := (idx_facts1 t).2.2.2.2.2.2.2.2.2.1
  match a with
  | ⟨0, _⟩ => show win0_5.index t (0 : Fin 2) * 5000 + 1 * p.val = win0_5.index t (0 : Fin 2) * 5000 + p.val; omega
  | ⟨1, _⟩ => show win0_5.index t (1 : Fin 2) * 64 + 1 * q.val = q.val; omega

/-- WHAT POINT `t` WRITES BACK is block `t` of `layer1` of the arrays the kernel found. -/
theorem flushed1_eq (c : Dev nD) (t : Fin cfg0.N) :
    (dat0 V c).flushed 5 t = ((cfg0.win 5).blk t).view.read (Elt Ideal)
      (layer1 (V c main_v29) (V c main_v30) (V c main_v31) (V c main_arg3) (V c main_arg4)) := by
  show (cfg0.win 5).cut (grid0.coords t) ((dat0 V c).after 5 t) = _
  rw [after0_5]
  unfold out0_5
  rw [View.canon_unit_zero zeros2]
  simp only [View.ld_unit_zero (S := S5000x64) zeros2, View.ld_unit_zero (S := S5000x1) zeros2,
    View.ld_unit_zero (S := S64x64) zeros2, View.ld_unit_zero (S := S64) zeros1]
  show (k0_pay1 (F := Ideal) (iblk0 V c 0 t) (iblk0 V c 1 t) (iblk0 V c 3 t) (iblk0 V c 4 t) (iblk0 V c 2 t) : S5000x64.Idx → EReal)
      = fun y => layer1 (V c main_v29) (V c main_v30) (V c main_v31) (V c main_arg3) (V c main_arg4) (((cfg0.win 5).blk t).view.emb y)
  funext j
  obtain ⟨p, q, rfl⟩ : ∃ (p : Fin 5000) (q : Fin 64), j = ix2 p q := ⟨j 0, j 1, eq_ix2 j⟩
  show _ = layer1 (V c main_v29) (V c main_v30) (V c main_v31) (V c main_arg3) (V c main_arg4) (((cfg0.win 5).blk t).view.emb (ix2 p q))
  rw [emb1_out t p q, layer1_ix2]
  refine (pay1_apply _ _ _ _ _ p q).trans ?_
  unfold row1
  simp only [read1_agg V c t, read1_nd V c t, read1_ns V c t, read1_w V c t, read1_b V c t]

/-- An index of the array is in point `t`'s block iff each coordinate is in the block's range on its axis. -/
theorem mem_blk1 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v32).slice (win0_5.rect t)).set ↔ _
  rw [View.set_slice_whole, Rect.mem_set_unit]
  exact Iff.rfl

/-- The ten blocks cover the array: row r is in the block of point r / 5000. -/
theorem cover1 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := idx_onto1 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk1]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 64 ≤ (i 1).val ∧ (i 1).val < win0_5.index t (1 : Fin 2) * 64 + 64; omega

/-- THE OUTPUT ARRAY after the layer-1 kernel's last write-back: `layer1` of the arrays it found. -/
theorem final1 (c : Dev nD) :
    (dat0 V c).arrAt 5 cfg0.N = layer1 (V c main_v29) (V c main_v30) (V c main_v31) (V c main_arg3) (V c main_arg4) :=
  (dat0 V c).arrAt_eq_of_cover 5 _ (fun t _ => flushed1_eq V c t) cover1

end Cert.GraphConv

end
-- ==== Proof.Blocks2.lean ====
/-
  Layer 2's kernel, from blocks to the array.
  Again a grid of ten points, point t handling rows 5000·t … 5000·t + 4999: the aggregated hidden features and the
  destination norms move with the point along the rows, the 64×32 weight matrix and the 32-entry bias are whole at every
  point, and the output block [5000, 32] sits at the same rows. What point t writes back is the block at those rows of
  `layer2` of the whole input arrays; the ten blocks tile the 50000 rows, so the output array ends at `layer2` of the
  arrays the kernel found.
-/
import proofs.«114237_j19713899889202_2_alg».proof.Proof.Gen.KernelIdeal.Frame
import proofs.«114237_j19713899889202_2_alg».proof.Proof.Payload
import proofs.«114237_j19713899889202_2_alg».proof.Proof.Spec
import Idealize.ShloMosaic.Lib.Pipeline.Value

set_option maxRecDepth 16384

noncomputable section

namespace Cert.GraphConv

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem zeros2' : (![0, 0] : Fin 2 → Nat) = fun _ => 0 := funext fun a => by fin_cases a <;> rfl
theorem zeros1' : (![0] : Fin 1 → Nat) = fun _ => 0 := funext fun a => by fin_cases a <;> rfl

/-- The index maps, decided over the ten grid points: the two row-blocked inputs sit at the output's row block and at
    column block 0; the weights and the bias at block 0; the output at column block 0 and a row block below 10. -/
theorem idx_facts2 : ∀ t : Fin cfg1.N,
      win1_0.index t (0 : Fin 2) = win1_4.index t (0 : Fin 2) ∧ win1_0.index t (1 : Fin 2) = 0
    ∧ win1_1.index t (0 : Fin 2) = win1_4.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (1 : Fin 2) = 0 ∧ win1_4.index t (0 : Fin 2) ≤ 9 :=
  (by decide +kernel : ∀ t : Fin grid1.N, _)

theorem row_block_le2 (t : Fin cfg1.N) : win1_4.index t (0 : Fin 2) ≤ 9 := (idx_facts2 t).2.2.2.2.2.2.2.2

/-- Every row block is some point's. -/
theorem idx_onto2 : ∀ q0 : Fin 10, ∃ t : Fin cfg1.N, win1_4.index t = ![q0.val, 0] :=
  (by decide +kernel : ∀ q0 : Fin 10, ∃ t : Fin grid1.N, win1_4.index t = ![q0.val, 0])

/-- Row `p` of point `t`'s block is this row of the array. -/
def blockRow2 (t : Fin cfg1.N) (p : Fin 5000) : Fin 50000 :=
  ⟨win1_4.index t (0 : Fin 2) * 5000 + p.val, by have := row_block_le2 t; have := p.isLt; omega⟩

/-- The aggregated features' block at a point reads the array at the block's rows. -/
theorem read2_agg (c : Dev nD) (t : Fin cfg1.N) (p : Fin 5000) (k : Fin 64) :
    iblk1 V c 0 t (ix2 p k) = V c main_v44 (ix2 (blockRow2 t p) k) := by
  show V c main_v44 (((cfg1.win 0).blk t).view.emb (ix2 p k)) = _
  refine congrArg (V c main_v44) (funext fun a => Fin.ext ?_)
  obtain ⟨e0, e1, -⟩ := idx_facts2 t
  match a with
  | ⟨0, _⟩ => show win1_0.index t (0 : Fin 2) * 5000 + 1 * p.val = win1_4.index t (0 : Fin 2) * 5000 + p.val; omega
  | ⟨1, _⟩ => show win1_0.index t (1 : Fin 2) * 64 + 1 * k.val = k.val; omega

/-- The destination norms' block at a point reads the column at the block's rows. -/
theorem read2_nd (c : Dev nD) (t : Fin cfg1.N) (p : Fin 5000) :
    iblk1 V c 1 t (ix2 p (0 : Fin 1)) = V c main_v45 (ix2 (blockRow2 t p) (0 : Fin 1)) := by
  show V c main_v45 (((cfg1.win 1).blk t).view.emb (ix2 p (0 : Fin 1))) = _
  refine congrArg (V c main_v45) (funext fun a => Fin.ext ?_)
  obtain ⟨-, -, e0, e1, -⟩ := idx_facts2 t
  match a with
  | ⟨0, _⟩ => show win1_1.index t (0 : Fin 2) * 5000 + 1 * p.val = win1_4.index t (0 : Fin 2) * 5000 + p.val; omega
  | ⟨1, _⟩ => show win1_1.index t (1 : Fin 2) * 1 + 1 * 0 = 0; omega

/-- The weights' block at every point is the whole matrix. -/
theorem read2_w (c : Dev nD) (t : Fin cfg1.N) (k : Fin 64) (q : Fin 32) :
    iblk1 V c 2 t (ix2 k q) = V c main_arg5 (ix2 k q) := by
  show V c main_arg5 (((cfg1.win 2).blk t).view.emb (ix2 k q)) = _
  refine congrArg (V c main_arg5) (funext fun a => Fin.ext ?_)
  obtain ⟨-, -, -, -, e0, e1, -⟩ := idx_facts2 t
  match a with
  | ⟨0, _⟩ => show win1_2.index t (0 : Fin 2) * 64 + 1 * k.val = k.val; omega
  | ⟨1, _⟩ => show win1_2.index t (1 : Fin 2) * 32 + 1 * q.val = q.val; omega

/-- The bias's block at every point is the whole vector. -/
theorem read2_b (c : Dev nD) (t : Fin cfg1.N) (q : Fin 32) :
    iblk1 V c 3 t (ix1 q) = V c main_arg6 (ix1 q) := by
  show V c main_arg6 (((cfg1.win 3).blk t).view.emb (ix1 q)) = _
  refine congrArg (V c main_arg6) (funext fun a => Fin.ext ?_)
  obtain ⟨-, -, -, -, -, -, e0, -⟩ := idx_facts2 t
  match a with
  | ⟨0, _⟩ => show win1_3.index t (0 : Fin 1) * 32 + 1 * q.val = q.val; omega

/-- Entry (p, q) of point `t`'s output block is entry (row of p, q) of the array. -/
theorem emb2_out (t : Fin cfg1.N) (p : Fin 5000) (q : Fin 32) :
    ((cfg1.win 4).blk t).view.emb (ix2 p q) = ix2 (blockRow2 t p) q := by
  funext a; apply Fin.ext
  have e1 : win1_4.index t (1 : Fin 2) = 0 := (idx_facts2 t).2.2.2.2.2.2.2.1
  match a with
  | ⟨0, _⟩ => show win1_4.index t (0 : Fin 2) * 5000 + 1 * p.val = win1_4.index t (0 : Fin 2) * 5000 + p.val; omega
  | ⟨1, _⟩ => show win1_4.index t (1 : Fin 2) * 32 + 1 * q.val = q.val; omega

/-- WHAT POINT `t` WRITES BACK is block `t` of `layer2` of the arrays the kernel found. -/
theorem flushed2_eq (c : Dev nD) (t : Fin cfg1.N) :
    (dat1 V c).flushed 4 t = ((cfg1.win 4).blk t).view.read (Elt Ideal)
      (layer2 (V c main_v44) (V c main_v45) (V c main_arg5) (V c main_arg6)) := by
  show (cfg1.win 4).cut (grid1.coords t) ((dat1 V c).after 4 t) = _
  rw [after1_4]
  unfold out1_4
  rw [View.canon_unit_zero zeros2']
  simp only [View.ld_unit_zero (S := S5000x64) zeros2', View.ld_unit_zero (S := S5000x1) zeros2',
    View.ld_unit_zero (S := S64x32) zeros2', View.ld_unit_zero (S := S32) zeros1']
  show (k1_pay1 (F := Ideal) (iblk1 V c 0 t) (iblk1 V c 1 t) (iblk1 V c 2 t) (iblk1 V c 3 t) : S5000x32.Idx → EReal)
      = fun y => layer2 (V c main_v44) (V c main_v45) (V c main_arg5) (V c main_arg6) (((cfg1.win 4).blk t).view.emb y)
  funext j
  obtain ⟨p, q, rfl⟩ : ∃ (p : Fin 5000) (q : Fin 32), j = ix2 p q := ⟨j 0, j 1, eq_ix2 j⟩
  show _ = layer2 (V c main_v44) (V c main_v45) (V c main_arg5) (V c main_arg6) (((cfg1.win 4).blk t).view.emb (ix2 p q))
  rw [emb2_out t p q, layer2_ix2]
  refine (pay2_apply _ _ _ _ p q).trans ?_
  unfold row2
  simp only [read2_agg V c t, read2_nd V c t, read2_w V c t, read2_b V c t]

/-- An index of the array is in point `t`'s block iff each coordinate is in the block's range on its axis. -/
theorem mem_blk2 (t : Fin cfg1.N) (i : S50000x32.Idx) :
    i ∈ ((cfg1.win 4).blk t).view.set ↔ ∀ a : Fin 2, win1_4.index t a * S5000x32.size a ≤ (i a).val ∧ (i a).val < win1_4.index t a * S5000x32.size a + S5000x32.size a := by
  show i ∈ ((View.whole main_v46).slice (win1_4.rect t)).set ↔ _
  rw [View.set_slice_whole, Rect.mem_set_unit]
  exact Iff.rfl

/-- The ten blocks cover the array: row r is in the block of point r / 5000. -/
theorem cover2 (i : S50000x32.Idx) : ∃ t : Fin cfg1.N, (cfg1.win 4).flush t = true ∧ i ∈ ((cfg1.win 4).blk t).view.set := by
  have hi0 : (i 0).val < 50000 := (i 0).isLt
  have hi1 : (i 1).val < 32 := (i 1).isLt
  obtain ⟨t, ht⟩ := idx_onto2 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk2]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 32 ≤ (i 1).val ∧ (i 1).val < win1_4.index t (1 : Fin 2) * 32 + 32; omega

/-- THE OUTPUT ARRAY after the layer-2 kernel's last write-back: `layer2` of the arrays it found. -/
theorem final2 (c : Dev nD) :
    (dat1 V c).arrAt 4 cfg1.N = layer2 (V c main_v44) (V c main_v45) (V c main_arg5) (V c main_arg6) :=
  (dat1 V c).arrAt_eq_of_cover 4 _ (fun t _ => flushed2_eq V c t) cover2

end Cert.GraphConv

end
-- ==== Proof.RefDense.lean ====
/-
  The reference's two dense stages are `layer1` and `layer2`.
  The reference computes, for layer 1, (agg · nd) @ W1 + b1, the rectifier, and then — as the first step of its second
  graph convolution — the product with the source norms; for layer 2, (agg · nd) @ W2 + b2. Read at row r and column q,
  with the host's matrix product as the sum over the 64 contracted positions, a norm column broadcast along the row read
  at the row, and a bias broadcast down the rows read at the column, these are exactly the row formulas `row1` and `row2`.
  The aggregated features (a gather and a scatter-add) stay unopened: they are the same stage on both sides.
-/
import proofs.«114237_j19713899889202_2_alg».proof.Proof.Gen.ReferenceIdeal.Read
import proofs.«114237_j19713899889202_2_alg».proof.Proof.Spec

noncomputable section

namespace Cert.GraphConv

open Idealize.ShloMosaic Idealize.ShloMosaic.ValueIdx Cert.ReferenceIdeal Cert.ReferenceIdeal.Read

/-- The reference's hidden features scaled by the source norms (the value its second gather reads) are `layer1` of its
    first aggregate, its destination-norm column, its source-norm column, W1 and b1. -/
theorem ref_layer1 (x0 : (⟨S50000x64, .f32⟩ : BufTy).Contents (Elt Ideal)) (x1 x2 : (⟨S800000, .i32⟩ : BufTy).Contents (Elt Ideal))
    (x3 : (⟨S64x64, .f32⟩ : BufTy).Contents (Elt Ideal)) (x4 : (⟨S64, .f32⟩ : BufTy).Contents (Elt Ideal)) :
    val_main_v50 (F := Ideal) x0 x1 x2 x3 x4
      = layer1 (val_main_v26 (F := Ideal) x0 x1 x2) (val_main_v14 (F := Ideal) x2) (val_main_v44 (F := Ideal) x1) x3 x4 := by
  funext i
  obtain ⟨r, q, rfl⟩ : ∃ (r : Fin 50000) (q : Fin 64), i = ix2 r q := ⟨i 0, i 1, eq_ix2 i⟩
  rw [layer1_ix2]
  unfold row1
  rw [val_main_v50_apply, val_main_v33_apply, val_main_v32_apply, val_main_v29_apply, val_main_v31_apply, val_main_v30_apply,
    val_main_call0_v0_apply, val_main_call0_cst_apply, val_main_v49_apply]
  have el : ∀ k : Fin 64, lidx_main_v29 (ix2 r q) k = ix2 r k := fun k => funext fun a => Fin.ext (by
    match a with
    | ⟨0, _⟩ => rfl
    | ⟨1, _⟩ => rfl)
  have er : ∀ k : Fin 64, ridx_main_v29 (ix2 r q) k = ix2 k q := fun k => funext fun a => Fin.ext (by
    match a with
    | ⟨0, _⟩ => rfl
    | ⟨1, _⟩ => rfl)
  have ecol : ∀ k : Fin 64, idx_main_v27 (ix2 r k) = ix2 r (0 : Fin 1) := fun k => funext fun a => Fin.ext (by
    match a with
    | ⟨0, _⟩ => rfl
    | ⟨1, _⟩ => rfl)
  have ebias : idx_main_v30 (idx_main_v31 (ix2 r q)) = ix1 q := funext fun a => Fin.ext (by
    match a with
    | ⟨0, _⟩ => rfl)
  have esrc : idx_main_v49 (ix2 r q) = ix2 r (0 : Fin 1) := funext fun a => Fin.ext (by
    match a with
    | ⟨0, _⟩ => rfl
    | ⟨1, _⟩ => rfl)
  have hsum : (∑ k : Fin 64, val_main_v28 (F := Ideal) x0 x1 x2 (lidx_main_v29 (ix2 r q) k) * x3 (ridx_main_v29 (ix2 r q) k))
      = ∑ k : Fin 64, (val_main_v26 (F := Ideal) x0 x1 x2 (ix2 r k) * val_main_v14 (F := Ideal) x2 (ix2 r (0 : Fin 1))) * x3 (ix2 k q) :=
    Finset.sum_congr rfl fun k _ => by
      rw [val_main_v28_apply, val_main_v27_apply, el k, er k, ecol k]
      generalize val_main_v26 (F := Ideal) x0 x1 x2 (ix2 r k) = a
      generalize val_main_v14 (F := Ideal) x2 (ix2 r (0 : Fin 1)) = b
      rfl
  rw [hsum, ebias, esrc]
  generalize (∑ k : Fin 64, (val_main_v26 (F := Ideal) x0 x1 x2 (ix2 r k) * val_main_v14 (F := Ideal) x2 (ix2 r (0 : Fin 1))) * x3 (ix2 k q)) = S
  generalize val_main_v44 (F := Ideal) x1 (ix2 r (0 : Fin 1)) = c
  rfl

/-- The reference's result is `layer2` of its second aggregate, its destination-norm column, W2 and b2. -/
theorem ref_layer2 (x0 : (⟨S50000x64, .f32⟩ : BufTy).Contents (Elt Ideal)) (x1 x2 : (⟨S800000, .i32⟩ : BufTy).Contents (Elt Ideal))
    (x3 : (⟨S64x64, .f32⟩ : BufTy).Contents (Elt Ideal)) (x4 : (⟨S64, .f32⟩ : BufTy).Contents (Elt Ideal))
    (x5 : (⟨S64x32, .f32⟩ : BufTy).Contents (Elt Ideal)) (x6 : (⟨S32, .f32⟩ : BufTy).Contents (Elt Ideal)) :
    val_main_v66 (F := Ideal) x0 x1 x2 x3 x4 x5 x6
      = layer2 (val_main_v60 (F := Ideal) x0 x1 x2 x3 x4) (val_main_v48 (F := Ideal) x2) x5 x6 := by
  funext i
  obtain ⟨r, q, rfl⟩ : ∃ (r : Fin 50000) (q : Fin 32), i = ix2 r q := ⟨i 0, i 1, eq_ix2 i⟩
  rw [layer2_ix2]
  unfold row2
  rw [val_main_v66_apply, val_main_v63_apply, val_main_v65_apply, val_main_v64_apply]
  have el : ∀ k : Fin 64, lidx_main_v63 (ix2 r q) k = ix2 r k := fun k => funext fun a => Fin.ext (by
    match a with
    | ⟨0, _⟩ => rfl
    | ⟨1, _⟩ => rfl)
  have er : ∀ k : Fin 64, ridx_main_v63 (ix2 r q) k = ix2 k q := fun k => funext fun a => Fin.ext (by
    match a with
    | ⟨0, _⟩ => rfl
    | ⟨1, _⟩ => rfl)
  have ecol : ∀ k : Fin 64, idx_main_v61 (ix2 r k) = ix2 r (0 : Fin 1) := fun k => funext fun a => Fin.ext (by
    match a with
    | ⟨0, _⟩ => rfl
    | ⟨1, _⟩ => rfl)
  have ebias : idx_main_v64 (idx_main_v65 (ix2 r q)) = ix1 q := funext fun a => Fin.ext (by
    match a with
    | ⟨0, _⟩ => rfl)
  have hsum : (∑ k : Fin 64, val_main_v62 (F := Ideal) x0 x1 x2 x3 x4 (lidx_main_v63 (ix2 r q) k) * x5 (ridx_main_v63 (ix2 r q) k))
      = ∑ k : Fin 64, (val_main_v60 (F := Ideal) x0 x1 x2 x3 x4 (ix2 r k) * val_main_v48 (F := Ideal) x2 (ix2 r (0 : Fin 1))) * x5 (ix2 k q) :=
    Finset.sum_congr rfl fun k _ => by
      rw [val_main_v62_apply, val_main_v61_apply, el k, er k, ecol k]
      generalize val_main_v60 (F := Ideal) x0 x1 x2 x3 x4 (ix2 r k) = a
      generalize val_main_v48 (F := Ideal) x2 (ix2 r (0 : Fin 1)) = b
      rfl
  rw [hsum, ebias]
  generalize (∑ k : Fin 64, (val_main_v60 (F := Ideal) x0 x1 x2 x3 x4 (ix2 r k) * val_main_v48 (F := Ideal) x2 (ix2 r (0 : Fin 1))) * x5 (ix2 k q)) = S
  rfl

end Cert.GraphConv

end
-- ==== Proof.Host1.lean ====
/-
  From the first kernel's output to the second kernel's output, against the reference's stages.
  The first kernel's output array is `layer1` of the arrays it found, which are the reference's stages: so it is the
  reference's hidden features scaled by the source norms. The host operations between the kernels narrow it to bf16,
  gather its rows along the edges' sources, widen, and add at the edges' destinations — the reference's second aggregate,
  the narrowing and widening being the identity on extended reals — and reshape the destination norms to a column, the
  reference's broadcast column. The second kernel's output array is `layer2` of what it found: the reference's result.
-/
import proofs.«114237_j19713899889202_2_alg».proof.Proof.Host0
import proofs.«114237_j19713899889202_2_alg».proof.Proof.Blocks1
import proofs.«114237_j19713899889202_2_alg».proof.Proof.Blocks2
import proofs.«114237_j19713899889202_2_alg».proof.Proof.RefDense

set_option maxRecDepth 16384

noncomputable section

namespace Cert.GraphConv

open Idealize.ShloMosaic Idealize.ShloMosaic.TcCoe Idealize.ShloMosaic.ValueIdx Idealize.ShloMosaic.StableHlo
open Idealize.SL Idealize.SL.Sem
open Cert.KernelIdeal Cert.KernelIdeal.Gen
open Cert.ReferenceIdeal.Read (val_main_v0 val_main_v1 val_main_v3 val_main_v9 val_main_v13 val_main_v14 val_main_v26 val_main_v44 val_main_v48 val_main_v50 val_main_v57 val_main_v60 val_main_v66)

variable (m : (ℓ : Loc nD τ sig) → Buf (Elt Ideal) ℓ) (ρ : Dev nD → PrngReg)

/-- THE FIRST KERNEL'S OUTPUT ARRAY is the reference's hidden features scaled by the source norms. -/
theorem hidden_eq (c : Dev nD) :
    W2 m ρ c (Proc.devRef .tc main_v32)
      = val_main_v50 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  refine (W2_arr m ρ c 5).trans ((final1 (V1 m ρ) c).trans ?_)
  rw [entry1_agg m ρ c, entry1_nd m ρ c, entry1_ns m ρ c, (entry1_arg m ρ c).2.2.1, (entry1_arg m ρ c).2.2.2.1]
  exact (ref_layer1 _ _ _ _ _).symm

/-- Buffers the first kernel does not own pass through it unchanged. -/
theorem through1 (c : Dev nD) :
    W2 m ρ c (Proc.devRef .tc main_arg1) = m ((c : Thread nD τ).loc main_arg1)
    ∧ W2 m ρ c (Proc.devRef .tc main_arg2) = m ((c : Thread nD τ).loc main_arg2)
    ∧ W2 m ρ c (Proc.devRef .tc main_arg5) = m ((c : Thread nD τ).loc main_arg5)
    ∧ W2 m ρ c (Proc.devRef .tc main_arg6) = m ((c : Thread nD τ).loc main_arg6)
    ∧ W2 m ρ c (Proc.devRef .tc main_v14) = val_main_v13 (F := Ideal) (m ((c : Thread nD τ).loc main_arg2)) :=
  ⟨(W2_of_ne m ρ c main_arg1 (by decide)).trans (entry1_arg m ρ c).1,
   (W2_of_ne m ρ c main_arg2 (by decide)).trans (entry1_arg m ρ c).2.1,
   (W2_of_ne m ρ c main_arg5 (by decide)).trans (entry1_arg m ρ c).2.2.2.2.1,
   (W2_of_ne m ρ c main_arg6 (by decide)).trans (entry1_arg m ρ c).2.2.2.2.2,
   (W2_of_ne m ρ c main_v14 (by decide)).trans (entry1_ndvec m ρ c)⟩

/-- The second kernel finds the reference's second aggregate. -/
theorem entry2_agg (c : Dev nD) :
    V3 m ρ c main_v44
      = val_main_v60 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) := by
  show StableHlo.after hostOps1 (W2 m ρ c) (Proc.devRef .tc main_v44) = _
  after_results_simp
  rw [hidden_eq m ρ c, (through1 m ρ c).1, (through1 m ρ c).2.1]
  unfold val_main_v60 val_main_v57
  generalize val_main_v50 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) = H
  rfl

/-- The second kernel finds the reference's destination-norm column. -/
theorem entry2_nd (c : Dev nD) :
    V3 m ρ c main_v45 = val_main_v48 (F := Ideal) (m ((c : Thread nD τ).loc main_arg2)) := by
  show StableHlo.after hostOps1 (W2 m ρ c) (Proc.devRef .tc main_v45) = _
  after_results_simp
  rw [(through1 m ρ c).2.2.2.2]
  exact (shapeCast_col_eq_broadcastInDim _ shapeCasts_S50000_S50000x1 bcast_S50000_S50000x1_0).trans rfl

/-- The second kernel finds the weights and bias of layer 2 as launched. -/
theorem entry2_arg (c : Dev nD) :
    V3 m ρ c main_arg5 = m ((c : Thread nD τ).loc main_arg5) ∧ V3 m ρ c main_arg6 = m ((c : Thread nD τ).loc main_arg6) := by
  refine ⟨?_, ?_⟩
  · show StableHlo.after hostOps1 (W2 m ρ c) (Proc.devRef .tc main_arg5) = _
    after_results_simp
    exact (through1 m ρ c).2.2.1
  · show StableHlo.after hostOps1 (W2 m ρ c) (Proc.devRef .tc main_arg6) = _
    after_results_simp
    exact (through1 m ρ c).2.2.2.1

/-- THE KERNEL'S RESULT is the reference's result stage, as a function of the seven argument arrays. -/
theorem result_eq (c : Dev nD) :
    (dat1 (V3 m ρ) c).arrAt 4 cfg1.N
      = val_main_v66 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  refine (final2 (V3 m ρ) c).trans ?_
  rw [entry2_agg m ρ c, entry2_nd m ρ c, (entry2_arg m ρ c).1, (entry2_arg m ρ c).2]
  exact (ref_layer2 _ _ _ _ _ _ _).symm

end Cert.GraphConv

end
-- ==== Proof.lean ====
/-
  A two-layer graph convolution: the kernel program against its jnp reference, at the ideal instance.

  For a graph on 50000 nodes with 800000 edges (src[e] → dst[e]) and node features x, both programs compute
      ns = 1/√max(outdeg, 1),  nd = 1/√max(indeg, 1)          (per node)
      agg1 = Σ_{e : dst[e] = v} (x · ns)[src[e]]               (a gather along src, a scatter-add along dst)
      h    = max((agg1 · nd) W1 + b1, 0) · ns
      agg2 = Σ_{e : dst[e] = v} h[src[e]]
      out  = (agg2 · nd) W2 + b2.
  The reference does all of it with host operations. The kernel program does the degree counts, the gathers and the
  scatter-adds with host operations and the two dense steps, (agg · nd) W + b (with the rectifier and the product with
  ns in layer 1), each in a kernel over ten blocks of 5000 rows. On extended reals the two programs differ only in
  spelling: the kernel counts degrees in 32-bit integers and converts (no count of at most 800000 edges wraps), carries
  the gathered rows through bf16 (a change of format is the identity), makes its norm columns by a reshape where the
  reference broadcasts, forms its matrix products block by block on the matrix unit where the reference uses one host
  product (the same finite sum at each entry), and multiplies by ns at the end of layer 1 where the reference does so
  at the start of layer 2 (the same product of the same two arrays). No law of arithmetic beyond these identifications
  is used, so the precondition (finite inputs) is never opened.

  The frames of the two kernel programs are the generated frame certificates; the reference's frame is its generated
  run with the result dropped; the idealization rewrote nothing, so `preserves` is trivial. For `algebraic` both runs
  are posted at ONE function of the seven argument arrays — the reference's result stage `val_main_v66` —: the
  kernel's run ends at its second kernel's output array (Proof/KernelRun.lean), which is that function of the launch
  arrays (Proof/Host0.lean, Proof/Blocks1.lean, Proof/Host1.lean, Proof/Blocks2.lean over Proof/Payload.lean,
  Proof/Spec.lean, Proof/RefDense.lean and the counting lemma Proof/LibScatterCount.lean).
-/
import proofs.«114237_j19713899889202_2_alg».proof.Defs
import proofs.«114237_j19713899889202_2_alg».proof.Proof.Gen.Kernel
import proofs.«114237_j19713899889202_2_alg».proof.Proof.Gen.Kernel.Skeleton
import proofs.«114237_j19713899889202_2_alg».proof.Proof.Gen.Kernel.Launch
import proofs.«114237_j19713899889202_2_alg».proof.Proof.Gen.Kernel.Points
import proofs.«114237_j19713899889202_2_alg».proof.Proof.Gen.Kernel.Frame
import proofs.«114237_j19713899889202_2_alg».proof.Proof.Gen.KernelIdeal
import proofs.«114237_j19713899889202_2_alg».proof.Proof.Gen.KernelIdeal.Skeleton
import proofs.«114237_j19713899889202_2_alg».proof.Proof.Gen.KernelIdeal.Launch
import proofs.«114237_j19713899889202_2_alg».proof.Proof.Gen.KernelIdeal.Points
import proofs.«114237_j19713899889202_2_alg».proof.Proof.Gen.KernelIdeal.Frame
import proofs.«114237_j19713899889202_2_alg».proof.Proof.Gen.ReferenceIdeal
import proofs.«114237_j19713899889202_2_alg».proof.Proof.Gen.Pre_finite_inputs
import proofs.«114237_j19713899889202_2_alg».proof.Proof.Gen.ReferenceIdeal.Run
import proofs.«114237_j19713899889202_2_alg».proof.Proof.Gen.ReferenceIdeal.Read
import proofs.«114237_j19713899889202_2_alg».proof.Proof.KernelRun
import proofs.«114237_j19713899889202_2_alg».proof.Proof.Host1
import Idealize.ShloMosaic.Adequacy
import Idealize.ShloMosaic.Init

noncomputable section

namespace Cert.Proof

open Idealize.ShloMosaic Idealize.SL.Sem

/-- The printed kernel program runs, faults nowhere and keeps its arguments: its generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, run from memories that agree on the seven arguments, end with the result buffer at the same function
    of those arguments: the reference's result stage. -/
theorem algebraic : Cert.algebraic_KernelIdeal_ReferenceIdeal := by
  intro m ρ m' ρ' _ hagree
  refine ⟨fun c => Cert.ReferenceIdeal.Read.val_main_v66 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.GraphConv.result_eq m ρ c), (h c).2⟩) (Cert.GraphConv.run_value m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v66_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
